-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x256 : Shape := ⟨2, ![1024, 256]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  main_v18

def fn {F : FTy → Type} [FloatOps F] (main_arg0 : FVec F S8x2048x1024 .f32) (main_arg1 : FVec F S1024x256 .f32) (main_arg2 : FVec F S1024x256 .f32) (main_arg3 : FVec F S1024x256 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_v13 main_v16
-- ==== Kernel.lean ====
abbrev S8x2048x1024 : Shape := ⟨3, ![8, 2048, 1024]⟩
abbrev S1024x256 : Shape := ⟨2, ![1024, 256]⟩
abbrev S8x2048x256 : Shape := ⟨3, ![8, 2048, 256]⟩
abbrev S1x512x1024 : Shape := ⟨3, ![1, 512, 1024]⟩
abbrev S1x512x256 : Shape := ⟨3, ![1, 512, 256]⟩
abbrev S512x1024 : Shape := ⟨2, ![512, 1024]⟩
abbrev S512x256 : Shape := ⟨2, ![512, 256]⟩
abbrev S1x2048x256 : Shape := ⟨3, ![1, 2048, 256]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x2048x256, .bf16⟩
  | .hbm, ⟨5, _⟩ => ⟨S8x2048x256, .bf16⟩
  | .hbm, ⟨6, _⟩ => ⟨S8x2048x256, .bf16⟩
  | .hbm, ⟨7, _⟩ => ⟨S8x2048x256, .f32⟩
  | .local _ .vmem, ⟨0, _⟩ => ⟨S1x512x1024, .f32⟩
  | .local _ .vmem, ⟨1, _⟩ => ⟨S1x512x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x2048x256, .bf16⟩
  | .local _ .vmem, ⟨17, _⟩ => ⟨S1x512x256, .f32⟩
  | .local _ .vmem, ⟨18, _⟩ => ⟨S1x512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S512x2048_S512 : S512x2048.Reduces [1] S512
  shapeCasts_S512_S512x1 : S512.ShapeCasts S512x1
  broadcasts_S512x1_S512x2048 : S512x1.Broadcasts S512x2048
  dot_S512x1024_S1024x256_S512x256_1_0_0_1_n_n_wf : DotDims.WF S512x1024 S1024x256 S512x256 [1] [0] [0] [1] [] []
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S8x2048x256.size a
  hwx0_4 : ∀ i : grid0.Coords, EltTy.bits .bf16 = 32 ∨ (Rect.block (s := S8x2048x256) S1x512x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x256.size a ≤ S8x2048x256.size a
  hwx0_5 : ∀ i : grid0.Coords, EltTy.bits .bf16 = 32 ∨ (Rect.block (s := S8x2048x256) S1x512x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x256.size a ≤ S8x2048x256.size a
  hwx0_6 : ∀ i : grid0.Coords, EltTy.bits .bf16 = 32 ∨ (Rect.block (s := S8x2048x256) S1x512x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S8x2048x256.size a
  hwx1_0 : ∀ i : grid1.Coords, EltTy.bits .bf16 = 32 ∨ (Rect.block (s := S8x2048x256) S1x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S8x2048x256.size a
  hwx1_1 : ∀ i : grid1.Coords, EltTy.bits .bf16 = 32 ∨ (Rect.block (s := S8x2048x256) S1x2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x256.size a ≤ S8x2048x256.size a
  hwx1_2 : ∀ i : grid1.Coords, EltTy.bits .bf16 = 32 ∨ (Rect.block (s := S8x2048x256) S1x2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x256.size a ≤ S8x2048x256.size a
  hwx1_3 : ∀ i : grid1.Coords, EltTy.bits .f32 = 32 ∨ (Rect.block (s := S8x2048x256) S1x512x256.size (cc1_transform_3 i) (hinb1_3 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x256 : Shape := ⟨2, ![1024, 256]⟩
abbrev S8x2048x256 : Shape := ⟨3, ![8, 2048, 256]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S8x2048x256, .f32⟩
  | .hbm, ⟨8, _⟩ => ⟨S8x2048x256, .f32⟩
  | .hbm, ⟨9, _⟩ => ⟨S8x2048x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x256_S8x2048x256_2_0_01_1_n_n_wf : DotDims.WF S8x2048x1024 S1024x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x1024_S1024x256_S8x2048x256_2_0_01_1_n_n : DotDims S8x2048x1024 S1024x256 S8x2048x256 where
  lhsContracting := [2]
  rhsContracting := [0]
  lhsNonContracting := [0, 1]
  rhsNonContracting := [1]
  lhsBatch := []
  rhsBatch := []
  wf := dot_S8x2048x1024_S1024x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Spec.lean ====
/-
  What both programs compute, index by index, on the extended reals.

  Three projections  P_W (b, s, u) = tanh (Σ_f x (b, s, f) · W (f, u))  of the input x [8, 2048, 1024] by the weight
  matrices W [1024, 256]; then, per batch b and query row s, the logits against every key row t,
      L (b, s, t) = (Σ_u Q (b, s, u) · K (b, t, u)) · c,          c = 2⁻⁵ (the f32 word 0x3D000000),
  their softmax along t in the form both programs spell (the row maximum taken from -inf and joined with -inf once
  more, subtracted before the exponential; the row sum of the exponentials; the quotient), and the weighted sum of
  the value rows,
      out (b, s, u) = Σ_t w (b, s, t) · V (b, t, u).
  The scale is where the two programs differ in spelling: one holds the word of 2⁻⁵, the other divides 1 by the square
  root of 1024; the square root of 1024 is 32 and 1 / 32 = 2⁻⁵ (scale_eq).
-/
import Idealize.ShloMosaic.PureOps.Ideal
import Idealize.ShloMosaic.Lib.ValueIdx

noncomputable section

namespace Cert.AttnTanh

open Idealize.ShloMosaic Idealize.ShloMosaic.ValueIdx

/-- The f32 word of -inf, as both programs spell it. -/
abbrev negInf : EReal := Ideal.ofBits .f32 0xFF800000#32
/-- The f32 word of the scale 2⁻⁵ = 1 / sqrt 1024. -/
abbrev scaleWord : EReal := Ideal.ofBits .f32 0x3D000000#32

/-- One tanh-activated projection at (b, s, u). -/
def projAt (x : (⟨3, ![8, 2048, 1024]⟩ : Shape).Idx → EReal) (W : (⟨2, ![1024, 256]⟩ : Shape).Idx → EReal)
    (b : Fin 8) (s : Fin 2048) (u : Fin 256) : EReal :=
  Ideal.tanh (∑ f : Fin 1024, x (ix3 b s f) * W (ix2 f u))

/-- The projection as an array [8, 2048, 256]. -/
def proj (x : (⟨3, ![8, 2048, 1024]⟩ : Shape).Idx → EReal) (W : (⟨2, ![1024, 256]⟩ : Shape).Idx → EReal) :
    (⟨3, ![8, 2048, 256]⟩ : Shape).Idx → EReal :=
  fun i => projAt x W (i 0) (i 1) (i 2)

theorem proj_apply (x : (⟨3, ![8, 2048, 1024]⟩ : Shape).Idx → EReal) (W : (⟨2, ![1024, 256]⟩ : Shape).Idx → EReal)
    (b : Fin 8) (s : Fin 2048) (u : Fin 256) : proj x W (ix3 b s u) = projAt x W b s u := rfl

/-- The scaled logit of query row s against key row t in batch b. -/
def logit (Q K : (⟨3, ![8, 2048, 256]⟩ : Shape).Idx → EReal) (b : Fin 8) (s t : Fin 2048) : EReal :=
  (∑ u : Fin 256, Q (ix3 b s u) * K (ix3 b t u)) * scaleWord

/-- The row maximum the softmax subtracts: the fold of max from -inf over the row, joined with -inf. -/
def rowTop (Q K : (⟨3, ![8, 2048, 256]⟩ : Shape).Idx → EReal) (b : Fin 8) (s : Fin 2048) : EReal :=
  max negInf ((Finset.univ : Finset (Fin 2048)).fold max negInf fun t => logit Q K b s t)

/-- The softmax weight of key row t for query row s. -/
def weight (Q K : (⟨3, ![8, 2048, 256]⟩ : Shape).Idx → EReal) (b : Fin 8) (s t : Fin 2048) : EReal :=
  Ideal.div (Ideal.exp (logit Q K b s t - rowTop Q K b s))
    (∑ j : Fin 2048, Ideal.exp (logit Q K b s j - rowTop Q K b s))

/-- The attention output at (b, s, u). -/
def attnAt (Q K V : (⟨3, ![8, 2048, 256]⟩ : Shape).Idx → EReal) (b : Fin 8) (s : Fin 2048) (u : Fin 256) : EReal :=
  ∑ t : Fin 2048, weight Q K b s t * V (ix3 b t u)

/-- The attention output as an array [8, 2048, 256]. -/
def attn (Q K V : (⟨3, ![8, 2048, 256]⟩ : Shape).Idx → EReal) : (⟨3, ![8, 2048, 256]⟩ : Shape).Idx → EReal :=
  fun i => attnAt Q K V (i 0) (i 1) (i 2)

theorem attn_apply (Q K V : (⟨3, ![8, 2048, 256]⟩ : Shape).Idx → EReal) (b : Fin 8) (s : Fin 2048) (u : Fin 256) :
    attn Q K V (ix3 b s u) = attnAt Q K V b s u := rfl

/-- The whole result: attention over the three projections of x. -/
def result (x : (⟨3, ![8, 2048, 1024]⟩ : Shape).Idx → EReal) (Wq Wk Wv : (⟨2, ![1024, 256]⟩ : Shape).Idx → EReal) :
    (⟨3, ![8, 2048, 256]⟩ : Shape).Idx → EReal :=
  attn (proj x Wq) (proj x Wk) (proj x Wv)

/-- 1 / sqrt 1024 is the word of 2⁻⁵: the f32 words of 1 and 1024 denote 1 and 1024, sqrt 1024 = 32, and the word
    0x3D000000 denotes 2⁻⁵ = 1 / 32. -/
theorem scale_eq :
    Ideal.div (Ideal.ofBits .f32 0x3F800000#32) (Ideal.sqrt (Ideal.ofBits .f32 0x44800000#32)) = scaleWord := by
  have h1 : Ideal.ofBits .f32 0x3F800000#32 = ((1 : ℝ) : EReal) := by
    simp [Ideal.ofBits, Ideal.ieee, -EReal.coe_mul]; norm_num
  have h1024 : Ideal.ofBits .f32 0x44800000#32 = ((1024 : ℝ) : EReal) := by
    simp [Ideal.ofBits, Ideal.ieee, -EReal.coe_mul]; norm_num
  have hs : Ideal.ofBits .f32 0x3D000000#32 = ((1 / 32 : ℝ) : EReal) := by
    simp [Ideal.ofBits, Ideal.ieee, -EReal.coe_mul]; norm_num
  have hsqrt : Real.sqrt 1024 = 32 := by
    rw [show (1024 : ℝ) = 32 ^ 2 by norm_num]
    exact Real.sqrt_sq (by norm_num)
  show _ = Ideal.ofBits .f32 0x3D000000#32
  rw [h1, h1024, hs, Ideal.sqrt_coe, if_neg (by norm_num), hsqrt, Ideal.div_coe (by norm_num), ← EReal.coe_mul]
  norm_num

end Cert.AttnTanh

end
-- ==== Proof.ProjBlock.lean ====
/-
  The projection kernel's body at one entry, at the exact values.

  The body takes a block of x re-laid as a matrix [512, 1024] and a whole weight matrix [1024, 256] (the changes of
  float format are the identity at the exact values), multiplies them into a zero accumulator, applies tanh, and
  re-lays the result as the block [1, 512, 256] it stores. Read at (0, p, j) that is
      tanh (Σ_f xb (0, p, f) · W (f, j)),
  row p of the block against column j of the weights. The three stores of the body differ only in the weight matrix.
-/
import proofs.«120962_j13855564496966_1_alg».proof.Proof.Gen.KernelIdeal.Skeleton
import proofs.«120962_j13855564496966_1_alg».proof.Proof.LibContractPlain
import proofs.«120962_j13855564496966_1_alg».proof.Proof.Spec
import Idealize.ShloMosaic.Lib.ValueLayout

noncomputable section

namespace Cert.KernelIdeal.ProjBlock

open Idealize.ShloMosaic Idealize.ShloMosaic.ValueIdx Cert.KernelIdeal Cert.KernelIdeal.Gen

/-- The block of x re-laid as a matrix reads, at (p, f), the block at (0, p, f). -/
theorem xmat_apply (xb : Vec Ideal S1x512x1024 .f32) (p : Fin 512) (f : Fin 1024) :
    k0_pay1 (F := Ideal) xb (ix2 p f) = xb (ix3 (0 : Fin 1) p f) := by
  unfold k0_pay1
  exact shapeCast_1ab_ab_apply xb shapeCasts_S1x512x1024_S512x1024 p f

/-- tanh of the product of the re-laid block by a weight matrix, re-laid as a block, at (0, p, j). -/
theorem tanhProduct_apply (xb : Vec Ideal S1x512x1024 .f32) (wb : Vec Ideal S1024x256 .f32) (p : Fin 512) (j : Fin 256) :
    (shapeCast S1x512x256
        (truncf .bf16 (tanh (matmul dot_S512x1024_S1024x256_S512x256_1_0_0_1_n_n none (k0_pay1 (F := Ideal) xb)
          (truncf .bf16 wb bitsLt_bf16_f32) (constant (F := Ideal) S512x256 .f32 0x00000000#32))) bitsLt_bf16_f32)
        shapeCasts_S512x256_S1x512x256 : FVec Ideal S1x512x256 .bf16) (ix3 (0 : Fin 1) p j)
      = Ideal.tanh (∑ f : Fin 1024, xb (ix3 (0 : Fin 1) p f) * wb (ix2 f j)) := by
  refine (shapeCast_ab_1ab_apply _ shapeCasts_S512x256_S1x512x256 (0 : Fin 1) p j).trans ?_
  show Ideal.tanh (matmul dot_S512x1024_S1024x256_S512x256_1_0_0_1_n_n none (k0_pay1 (F := Ideal) xb)
          (truncf .bf16 wb bitsLt_bf16_f32) (constant (F := Ideal) S512x256 .f32 0x00000000#32) (ix2 p j)) = _
  refine congrArg Ideal.tanh ?_
  refine (Cert.Lib.ContractPlain.matmulZero_apply dot_S512x1024_S1024x256_S512x256_1_0_0_1_n_n rfl none _ _ p j).trans ?_
  refine Finset.sum_congr rfl fun f _ => ?_
  rw [xmat_apply]
  rfl

/-- The first store's payload (the weights of the queries) at (0, p, j). -/
theorem pay2_apply (xb : Vec Ideal S1x512x1024 .f32) (wb : Vec Ideal S1024x256 .f32) (p : Fin 512) (j : Fin 256) :
    k0_pay2 (F := Ideal) xb wb (ix3 (0 : Fin 1) p j)
      = Ideal.tanh (∑ f : Fin 1024, xb (ix3 (0 : Fin 1) p f) * wb (ix2 f j)) :=
  tanhProduct_apply xb wb p j

/-- The second store's payload (the weights of the keys) at (0, p, j). -/
theorem pay3_apply (xb : Vec Ideal S1x512x1024 .f32) (wb : Vec Ideal S1024x256 .f32) (p : Fin 512) (j : Fin 256) :
    k0_pay3 (F := Ideal) xb wb (ix3 (0 : Fin 1) p j)
      = Ideal.tanh (∑ f : Fin 1024, xb (ix3 (0 : Fin 1) p f) * wb (ix2 f j)) :=
  tanhProduct_apply xb wb p j

/-- The third store's payload (the weights of the values) at (0, p, j). -/
theorem pay4_apply (xb : Vec Ideal S1x512x1024 .f32) (wb : Vec Ideal S1024x256 .f32) (p : Fin 512) (j : Fin 256) :
    k0_pay4 (F := Ideal) xb wb (ix3 (0 : Fin 1) p j)
      = Ideal.tanh (∑ f : Fin 1024, xb (ix3 (0 : Fin 1) p f) * wb (ix2 f j)) :=
  tanhProduct_apply xb wb p j

/-- An index of a block [1, 512, 256] has leading coordinate 0. -/
theorem blockIdx_eq (y : S1x512x256.Idx) : y = ix3 (0 : Fin 1) (y 1) (y 2) :=
  (eq_ix3 y).trans (congrArg (fun a : Fin 1 => ix3 a (y 1) (y 2)) (Subsingleton.elim _ _))

/-- tanh of the product, at a block index y, is the specification's projection at an array index i, as soon as row
    (y 1) of the x block is row (i 0, i 1) of x and column (y 2) of the weight block is column (i 2) of W. -/
theorem tanhProduct_eq_proj (x : (⟨3, ![8, 2048, 1024]⟩ : Shape).Idx → EReal) (W : (⟨2, ![1024, 256]⟩ : Shape).Idx → EReal)
    (xb : Vec Ideal S1x512x1024 .f32) (wb : Vec Ideal S1024x256 .f32)
    (y : S1x512x256.Idx) (i : (⟨3, ![8, 2048, 256]⟩ : Shape).Idx)
    (hx : ∀ f : Fin 1024, xb (ix3 (0 : Fin 1) (y 1) f) = x (ix3 (i 0) (i 1) f))
    (hw : ∀ f : Fin 1024, wb (ix2 f (y 2)) = W (ix2 f (i 2))) :
    Ideal.tanh (∑ f : Fin 1024, xb (ix3 (0 : Fin 1) (y 1) f) * wb (ix2 f (y 2))) = Cert.AttnTanh.proj x W i := by
  show _ = Cert.AttnTanh.projAt x W (i 0) (i 1) (i 2)
  unfold Cert.AttnTanh.projAt
  refine congrArg Ideal.tanh (Finset.sum_congr rfl fun f _ => ?_)
  rw [hx f, hw f]

theorem pay2_eq_proj (x : (⟨3, ![8, 2048, 1024]⟩ : Shape).Idx → EReal) (W : (⟨2, ![1024, 256]⟩ : Shape).Idx → EReal)
    (xb : Vec Ideal S1x512x1024 .f32) (wb : Vec Ideal S1024x256 .f32)
    (y : S1x512x256.Idx) (i : (⟨3, ![8, 2048, 256]⟩ : Shape).Idx)
    (hx : ∀ f : Fin 1024, xb (ix3 (0 : Fin 1) (y 1) f) = x (ix3 (i 0) (i 1) f))
    (hw : ∀ f : Fin 1024, wb (ix2 f (y 2)) = W (ix2 f (i 2))) :
    k0_pay2 (F := Ideal) xb wb y = Cert.AttnTanh.proj x W i :=
  (congrArg (k0_pay2 (F := Ideal) xb wb) (blockIdx_eq y)).trans
    ((pay2_apply xb wb (y 1) (y 2)).trans (tanhProduct_eq_proj x W xb wb y i hx hw))

theorem pay3_eq_proj (x : (⟨3, ![8, 2048, 1024]⟩ : Shape).Idx → EReal) (W : (⟨2, ![1024, 256]⟩ : Shape).Idx → EReal)
    (xb : Vec Ideal S1x512x1024 .f32) (wb : Vec Ideal S1024x256 .f32)
    (y : S1x512x256.Idx) (i : (⟨3, ![8, 2048, 256]⟩ : Shape).Idx)
    (hx : ∀ f : Fin 1024, xb (ix3 (0 : Fin 1) (y 1) f) = x (ix3 (i 0) (i 1) f))
    (hw : ∀ f : Fin 1024, wb (ix2 f (y 2)) = W (ix2 f (i 2))) :
    k0_pay3 (F := Ideal) xb wb y = Cert.AttnTanh.proj x W i :=
  (congrArg (k0_pay3 (F := Ideal) xb wb) (blockIdx_eq y)).trans
    ((pay3_apply xb wb (y 1) (y 2)).trans (tanhProduct_eq_proj x W xb wb y i hx hw))

theorem pay4_eq_proj (x : (⟨3, ![8, 2048, 1024]⟩ : Shape).Idx → EReal) (W : (⟨2, ![1024, 256]⟩ : Shape).Idx → EReal)
    (xb : Vec Ideal S1x512x1024 .f32) (wb : Vec Ideal S1024x256 .f32)
    (y : S1x512x256.Idx) (i : (⟨3, ![8, 2048, 256]⟩ : Shape).Idx)
    (hx : ∀ f : Fin 1024, xb (ix3 (0 : Fin 1) (y 1) f) = x (ix3 (i 0) (i 1) f))
    (hw : ∀ f : Fin 1024, wb (ix2 f (y 2)) = W (ix2 f (i 2))) :
    k0_pay4 (F := Ideal) xb wb y = Cert.AttnTanh.proj x W i :=
  (congrArg (k0_pay4 (F := Ideal) xb wb) (blockIdx_eq y)).trans
    ((pay4_apply xb wb (y 1) (y 2)).trans (tanhProduct_eq_proj x W xb wb y i hx hw))

end Cert.KernelIdeal.ProjBlock

end
-- ==== Proof.ProjArray.lean ====
/-
  The projection kernel's three output arrays after its grid has run, at the exact values.

  The grid has 8 × 4 points; point (b, r) reads rows [512 r, 512 r + 512) of batch b of x and the three whole weight
  matrices, and writes the same rows of batch b of each output array. What a point writes back is, entry by entry,
  tanh of the row of x against the column of the weights — the block of the specification's projection — and the
  blocks of the 32 points tile each output array, so each array ends as the whole projection.
-/
import proofs.«120962_j13855564496966_1_alg».proof.Proof.Gen.KernelIdeal.Frame
import proofs.«120962_j13855564496966_1_alg».proof.Proof.ProjBlock
import Idealize.ShloMosaic.Lib.Pipeline.Value

set_option maxRecDepth 16384

noncomputable section

namespace Cert.KernelIdeal.ProjArray

open Idealize.ShloMosaic Idealize.ShloMosaic.TcCoe Idealize.ShloMosaic.ValueIdx Idealize.SL.Sem
open Cert.KernelIdeal Cert.KernelIdeal.Gen Cert.AttnTanh
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the grid: the block of x moves with the output blocks, along the batch and the row axis; the
    weight matrices are whole. -/
theorem idx_in : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## Output window 4 -/

theorem idx_out4 : ∀ t : Fin cfg0.N,
    win0_4.index t (0 : Fin 3) = t.val / 4 ∧ win0_4.index t (1 : Fin 3) = t.val % 4 ∧ win0_4.index t (2 : Fin 3) = 0 :=
  (by decide +kernel : ∀ t : Fin grid0.N, _)

/-- What point t writes back through window 4 is its block of the projection of x by the weights of window 1. -/
theorem flushed4 (c : Dev nD) (t : Fin cfg0.N) :
    (dat0 V c).flushed 4 t = ((cfg0.win 4).blk t).view.read (Elt Ideal) (proj (V c main_arg0) (V c main_arg1)) := by
  show (cfg0.win 4).cut (grid0.coords t) ((dat0 V c).after 4 t) = _
  rw [after0_4]
  unfold out0_4
  rw [View.canon_unit_zero zeros3]
  simp only [View.ld_unit_zero (S := S1x512x1024) zeros3, View.ld_unit_zero (S := S1024x256) zeros2]
  obtain ⟨a0, a1, a2, b0, b1, c0, c1, d0, d1⟩ := idx_in t
  obtain ⟨o0, o1, o2⟩ := idx_out4 t
  funext y
  refine ProjBlock.pay2_eq_proj (V c main_arg0) (V c main_arg1) (iblk0 V c 0 t) (iblk0 V c 1 t) y
    (((cfg0.win 4).blk t).view.emb y) (fun f => ?_) (fun f => ?_)
  · show V c main_arg0 (((cfg0.win 0).blk t).view.emb (ix3 (0 : Fin 1) (y 1) f)) = V c main_arg0 _
    refine congrArg (V c main_arg0) (funext fun a => Fin.ext ?_)
    match a with
    | ⟨0, _⟩ =>
      show win0_0.index t (0 : Fin 3) * 1 + 1 * 0 = win0_4.index t (0 : Fin 3) * 1 + 1 * (y 0).val
      have hy : (y 0).val < 1 := (y 0).isLt
      omega
    | ⟨1, _⟩ =>
      show win0_0.index t (1 : Fin 3) * 512 + 1 * (y 1).val = win0_4.index t (1 : Fin 3) * 512 + 1 * (y 1).val
      omega
    | ⟨2, _⟩ =>
      show win0_0.index t (2 : Fin 3) * 1024 + 1 * f.val = f.val
      omega
  · show V c main_arg1 (((cfg0.win 1).blk t).view.emb (ix2 f (y 2))) = V c main_arg1 _
    refine congrArg (V c main_arg1) (funext fun a => Fin.ext ?_)
    match a with
    | ⟨0, _⟩ =>
      show win0_1.index t (0 : Fin 2) * 1024 + 1 * f.val = f.val
      omega
    | ⟨1, _⟩ =>
      show win0_1.index t (1 : Fin 2) * 256 + 1 * (y 2).val = win0_4.index t (2 : Fin 3) * 256 + 1 * (y 2).val
      omega

/-- An index of the array is in point t's block iff each coordinate is in the block's range on its axis. -/
theorem mem_blk4 (t : Fin cfg0.N) (i : S8x2048x256.Idx) :
    i ∈ ((cfg0.win 4).blk t).view.set ↔ ∀ a : Fin 3, win0_4.index t a * S1x512x256.size a ≤ (i a).val
      ∧ (i a).val < win0_4.index t a * S1x512x256.size a + S1x512x256.size a := by
  show i ∈ ((View.whole main_v0_0).slice (win0_4.rect t)).set ↔ _
  rw [View.set_slice_whole, Rect.mem_set_unit]
  exact Iff.rfl

/-- Every index of the array is in the block of the point (batch, row / 512). -/
theorem cover4 (i : S8x2048x256.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 256 := (i 2).isLt
  have hN : grid0.N = 32 := N_0
  refine ⟨⟨(i 0).val * 4 + (i 1).val / 512, by show _ < grid0.N; omega⟩, flush0_4 _, ?_⟩
  rw [mem_blk4]
  obtain ⟨o0, o1, o2⟩ := idx_out4 ⟨(i 0).val * 4 + (i 1).val / 512, by show _ < grid0.N; omega⟩
  have e0 : ((i 0).val * 4 + (i 1).val / 512) / 4 = (i 0).val := by omega
  have e1 : ((i 0).val * 4 + (i 1).val / 512) % 4 = (i 1).val / 512 := by omega
  intro a
  match a with
  | ⟨0, _⟩ =>
    show win0_4.index _ (0 : Fin 3) * 1 ≤ (i 0).val ∧ (i 0).val < win0_4.index _ (0 : Fin 3) * 1 + 1
    rw [o0]; show ((i 0).val * 4 + (i 1).val / 512) / 4 * 1 ≤ (i 0).val ∧ (i 0).val < ((i 0).val * 4 + (i 1).val / 512) / 4 * 1 + 1
    omega
  | ⟨1, _⟩ =>
    show win0_4.index _ (1 : Fin 3) * 512 ≤ (i 1).val ∧ (i 1).val < win0_4.index _ (1 : Fin 3) * 512 + 512
    rw [o1]; show ((i 0).val * 4 + (i 1).val / 512) % 4 * 512 ≤ (i 1).val ∧ (i 1).val < ((i 0).val * 4 + (i 1).val / 512) % 4 * 512 + 512
    omega
  | ⟨2, _⟩ =>
    show win0_4.index _ (2 : Fin 3) * 256 ≤ (i 2).val ∧ (i 2).val < win0_4.index _ (2 : Fin 3) * 256 + 256
    rw [o2]; omega

/-- The array of window 4 after the grid: the whole projection. -/
theorem final4 (c : Dev nD) : (dat0 V c).arrAt 4 cfg0.N = proj (V c main_arg0) (V c main_arg1) :=
  (dat0 V c).arrAt_eq_of_cover 4 _ (fun t _ => flushed4 V c t) (cover4)

/-! ## Output window 5 -/

theorem idx_out5 : ∀ t : Fin cfg0.N,
    win0_5.index t (0 : Fin 3) = t.val / 4 ∧ win0_5.index t (1 : Fin 3) = t.val % 4 ∧ win0_5.index t (2 : Fin 3) = 0 :=
  (by decide +kernel : ∀ t : Fin grid0.N, _)

/-- What point t writes back through window 5 is its block of the projection of x by the weights of window 2. -/
theorem flushed5 (c : Dev nD) (t : Fin cfg0.N) :
    (dat0 V c).flushed 5 t = ((cfg0.win 5).blk t).view.read (Elt Ideal) (proj (V c main_arg0) (V c main_arg2)) := by
  show (cfg0.win 5).cut (grid0.coords t) ((dat0 V c).after 5 t) = _
  rw [after0_5]
  unfold out0_5
  rw [View.canon_unit_zero zeros3]
  simp only [View.ld_unit_zero (S := S1x512x1024) zeros3, View.ld_unit_zero (S := S1024x256) zeros2]
  obtain ⟨a0, a1, a2, b0, b1, c0, c1, d0, d1⟩ := idx_in t
  obtain ⟨o0, o1, o2⟩ := idx_out5 t
  funext y
  refine ProjBlock.pay3_eq_proj (V c main_arg0) (V c main_arg2) (iblk0 V c 0 t) (iblk0 V c 2 t) y
    (((cfg0.win 5).blk t).view.emb y) (fun f => ?_) (fun f => ?_)
  · show V c main_arg0 (((cfg0.win 0).blk t).view.emb (ix3 (0 : Fin 1) (y 1) f)) = V c main_arg0 _
    refine congrArg (V c main_arg0) (funext fun a => Fin.ext ?_)
    match a with
    | ⟨0, _⟩ =>
      show win0_0.index t (0 : Fin 3) * 1 + 1 * 0 = win0_5.index t (0 : Fin 3) * 1 + 1 * (y 0).val
      have hy : (y 0).val < 1 := (y 0).isLt
      omega
    | ⟨1, _⟩ =>
      show win0_0.index t (1 : Fin 3) * 512 + 1 * (y 1).val = win0_5.index t (1 : Fin 3) * 512 + 1 * (y 1).val
      omega
    | ⟨2, _⟩ =>
      show win0_0.index t (2 : Fin 3) * 1024 + 1 * f.val = f.val
      omega
  · show V c main_arg2 (((cfg0.win 2).blk t).view.emb (ix2 f (y 2))) = V c main_arg2 _
    refine congrArg (V c main_arg2) (funext fun a => Fin.ext ?_)
    match a with
    | ⟨0, _⟩ =>
      show win0_2.index t (0 : Fin 2) * 1024 + 1 * f.val = f.val
      omega
    | ⟨1, _⟩ =>
      show win0_2.index t (1 : Fin 2) * 256 + 1 * (y 2).val = win0_5.index t (2 : Fin 3) * 256 + 1 * (y 2).val
      omega

/-- An index of the array is in point t's block iff each coordinate is in the block's range on its axis. -/
theorem mem_blk5 (t : Fin cfg0.N) (i : S8x2048x256.Idx) :
    i ∈ ((cfg0.win 5).blk t).view.set ↔ ∀ a : Fin 3, win0_5.index t a * S1x512x256.size a ≤ (i a).val
      ∧ (i a).val < win0_5.index t a * S1x512x256.size a + S1x512x256.size a := by
  show i ∈ ((View.whole main_v0_1).slice (win0_5.rect t)).set ↔ _
  rw [View.set_slice_whole, Rect.mem_set_unit]
  exact Iff.rfl

/-- Every index of the array is in the block of the point (batch, row / 512). -/
theorem cover5 (i : S8x2048x256.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 256 := (i 2).isLt
  have hN : grid0.N = 32 := N_0
  refine ⟨⟨(i 0).val * 4 + (i 1).val / 512, by show _ < grid0.N; omega⟩, flush0_5 _, ?_⟩
  rw [mem_blk5]
  obtain ⟨o0, o1, o2⟩ := idx_out5 ⟨(i 0).val * 4 + (i 1).val / 512, by show _ < grid0.N; omega⟩
  have e0 : ((i 0).val * 4 + (i 1).val / 512) / 4 = (i 0).val := by omega
  have e1 : ((i 0).val * 4 + (i 1).val / 512) % 4 = (i 1).val / 512 := by omega
  intro a
  match a with
  | ⟨0, _⟩ =>
    show win0_5.index _ (0 : Fin 3) * 1 ≤ (i 0).val ∧ (i 0).val < win0_5.index _ (0 : Fin 3) * 1 + 1
    rw [o0]; show ((i 0).val * 4 + (i 1).val / 512) / 4 * 1 ≤ (i 0).val ∧ (i 0).val < ((i 0).val * 4 + (i 1).val / 512) / 4 * 1 + 1
    omega
  | ⟨1, _⟩ =>
    show win0_5.index _ (1 : Fin 3) * 512 ≤ (i 1).val ∧ (i 1).val < win0_5.index _ (1 : Fin 3) * 512 + 512
    rw [o1]; show ((i 0).val * 4 + (i 1).val / 512) % 4 * 512 ≤ (i 1).val ∧ (i 1).val < ((i 0).val * 4 + (i 1).val / 512) % 4 * 512 + 512
    omega
  | ⟨2, _⟩ =>
    show win0_5.index _ (2 : Fin 3) * 256 ≤ (i 2).val ∧ (i 2).val < win0_5.index _ (2 : Fin 3) * 256 + 256
    rw [o2]; omega

/-- The array of window 5 after the grid: the whole projection. -/
theorem final5 (c : Dev nD) : (dat0 V c).arrAt 5 cfg0.N = proj (V c main_arg0) (V c main_arg2) :=
  (dat0 V c).arrAt_eq_of_cover 5 _ (fun t _ => flushed5 V c t) (cover5)

/-! ## Output window 6 -/

theorem idx_out6 : ∀ t : Fin cfg0.N,
    win0_6.index t (0 : Fin 3) = t.val / 4 ∧ win0_6.index t (1 : Fin 3) = t.val % 4 ∧ win0_6.index t (2 : Fin 3) = 0 :=
  (by decide +kernel : ∀ t : Fin grid0.N, _)

/-- What point t writes back through window 6 is its block of the projection of x by the weights of window 3. -/
theorem flushed6 (c : Dev nD) (t : Fin cfg0.N) :
    (dat0 V c).flushed 6 t = ((cfg0.win 6).blk t).view.read (Elt Ideal) (proj (V c main_arg0) (V c main_arg3)) := by
  show (cfg0.win 6).cut (grid0.coords t) ((dat0 V c).after 6 t) = _
  rw [after0_6]
  unfold out0_6
  rw [View.canon_unit_zero zeros3]
  simp only [View.ld_unit_zero (S := S1x512x1024) zeros3, View.ld_unit_zero (S := S1024x256) zeros2]
  obtain ⟨a0, a1, a2, b0, b1, c0, c1, d0, d1⟩ := idx_in t
  obtain ⟨o0, o1, o2⟩ := idx_out6 t
  funext y
  refine ProjBlock.pay4_eq_proj (V c main_arg0) (V c main_arg3) (iblk0 V c 0 t) (iblk0 V c 3 t) y
    (((cfg0.win 6).blk t).view.emb y) (fun f => ?_) (fun f => ?_)
  · show V c main_arg0 (((cfg0.win 0).blk t).view.emb (ix3 (0 : Fin 1) (y 1) f)) = V c main_arg0 _
    refine congrArg (V c main_arg0) (funext fun a => Fin.ext ?_)
    match a with
    | ⟨0, _⟩ =>
      show win0_0.index t (0 : Fin 3) * 1 + 1 * 0 = win0_6.index t (0 : Fin 3) * 1 + 1 * (y 0).val
      have hy : (y 0).val < 1 := (y 0).isLt
      omega
    | ⟨1, _⟩ =>
      show win0_0.index t (1 : Fin 3) * 512 + 1 * (y 1).val = win0_6.index t (1 : Fin 3) * 512 + 1 * (y 1).val
      omega
    | ⟨2, _⟩ =>
      show win0_0.index t (2 : Fin 3) * 1024 + 1 * f.val = f.val
      omega
  · show V c main_arg3 (((cfg0.win 3).blk t).view.emb (ix2 f (y 2))) = V c main_arg3 _
    refine congrArg (V c main_arg3) (funext fun a => Fin.ext ?_)
    match a with
    | ⟨0, _⟩ =>
      show win0_3.index t (0 : Fin 2) * 1024 + 1 * f.val = f.val
      omega
    | ⟨1, _⟩ =>
      show win0_3.index t (1 : Fin 2) * 256 + 1 * (y 2).val = win0_6.index t (2 : Fin 3) * 256 + 1 * (y 2).val
      omega

/-- An index of the array is in point t's block iff each coordinate is in the block's range on its axis. -/
theorem mem_blk6 (t : Fin cfg0.N) (i : S8x2048x256.Idx) :
    i ∈ ((cfg0.win 6).blk t).view.set ↔ ∀ a : Fin 3, win0_6.index t a * S1x512x256.size a ≤ (i a).val
      ∧ (i a).val < win0_6.index t a * S1x512x256.size a + S1x512x256.size a := by
  show i ∈ ((View.whole main_v0_2).slice (win0_6.rect t)).set ↔ _
  rw [View.set_slice_whole, Rect.mem_set_unit]
  exact Iff.rfl

/-- Every index of the array is in the block of the point (batch, row / 512). -/
theorem cover6 (i : S8x2048x256.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 256 := (i 2).isLt
  have hN : grid0.N = 32 := N_0
  refine ⟨⟨(i 0).val * 4 + (i 1).val / 512, by show _ < grid0.N; omega⟩, flush0_6 _, ?_⟩
  rw [mem_blk6]
  obtain ⟨o0, o1, o2⟩ := idx_out6 ⟨(i 0).val * 4 + (i 1).val / 512, by show _ < grid0.N; omega⟩
  have e0 : ((i 0).val * 4 + (i 1).val / 512) / 4 = (i 0).val := by omega
  have e1 : ((i 0).val * 4 + (i 1).val / 512) % 4 = (i 1).val / 512 := by omega
  intro a
  match a with
  | ⟨0, _⟩ =>
    show win0_6.index _ (0 : Fin 3) * 1 ≤ (i 0).val ∧ (i 0).val < win0_6.index _ (0 : Fin 3) * 1 + 1
    rw [o0]; show ((i 0).val * 4 + (i 1).val / 512) / 4 * 1 ≤ (i 0).val ∧ (i 0).val < ((i 0).val * 4 + (i 1).val / 512) / 4 * 1 + 1
    omega
  | ⟨1, _⟩ =>
    show win0_6.index _ (1 : Fin 3) * 512 ≤ (i 1).val ∧ (i 1).val < win0_6.index _ (1 : Fin 3) * 512 + 512
    rw [o1]; show ((i 0).val * 4 + (i 1).val / 512) % 4 * 512 ≤ (i 1).val ∧ (i 1).val < ((i 0).val * 4 + (i 1).val / 512) % 4 * 512 + 512
    omega
  | ⟨2, _⟩ =>
    show win0_6.index _ (2 : Fin 3) * 256 ≤ (i 2).val ∧ (i 2).val < win0_6.index _ (2 : Fin 3) * 256 + 256
    rw [o2]; omega

/-- The array of window 6 after the grid: the whole projection. -/
theorem final6 (c : Dev nD) : (dat0 V c).arrAt 6 cfg0.N = proj (V c main_arg0) (V c main_arg3) :=
  (dat0 V c).arrAt_eq_of_cover 6 _ (fun t _ => flushed6 V c t) (cover6)

end Cert.KernelIdeal.ProjArray

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.LibSoftmaxSteps.lean ====
/-
  A kernel body's row softmax of a block of logits [a, b], read at an entry, at the exact values.

  The body spells jax.nn.softmax along the last axis as: the row maximum (a max-reduction from -inf, joined once more
  with -inf), re-laid as a column and spread back over the row; subtract; exp; the row sum, re-laid as a column and
  spread back; divide. Read at (p, q) that is exp (L(p,q) - m) over the sum along row p of exp (L(p,j) - m), with m the
  fold of max from -inf over row p, joined with -inf. The f32 word of -inf is left uninterpreted (a program on the other
  side spells the same word), and the side conditions of the layout steps are parameters, so a printed program's own
  proofs of them are accepted as they are.
-/
import proofs.«120962_j13855564496966_1_alg».proof.Proof.LibKeepdims
import proofs.«120962_j13855564496966_1_alg».proof.Proof.LibBlockLayout

noncomputable section

namespace Cert.Lib.SoftmaxSteps

open Idealize.ShloMosaic Idealize.ShloMosaic.ValueIdx

/-- A block of logits L [a, b] put through the body's softmax steps (row maximum joined with -inf, kept as a column and
    spread back over the row; subtract; exp; row sum kept as a column and spread back; divide), read at entry (p, q):
    exp (L(p,q) - m) over the row's sum of exp (L(p,j) - m), m the row's maximum joined with -inf. -/
theorem softmaxSteps_apply {a b : Nat} (L : FVec Ideal ⟨2, ![a, b]⟩ .f32)
    (hr : (⟨2, ![a, b]⟩ : Shape).Reduces [(1 : Fin 2)] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (p : Fin a) (q : Fin b) :
    divf (exp (subf L (broadcastTo ⟨2, ![a, b]⟩ (shapeCast ⟨2, ![a, 1]⟩ (maximumf (broadcast ⟨1, ![a]⟩ (Scalar.ofBits (F := Ideal) .f32 0xFF800000#32))
          (multiReduction .maximumf [(1 : Fin 2)] ⟨1, ![a]⟩ L 0xFF800000#32 hr hφ hmax)) hc) hb)))
        (broadcastTo ⟨2, ![a, b]⟩ (shapeCast ⟨2, ![a, 1]⟩ (multiReduction .add [(1 : Fin 2)] ⟨1, ![a]⟩
          (exp (subf L (broadcastTo ⟨2, ![a, b]⟩ (shapeCast ⟨2, ![a, 1]⟩ (maximumf (broadcast ⟨1, ![a]⟩ (Scalar.ofBits (F := Ideal) .f32 0xFF800000#32))
            (multiReduction .maximumf [(1 : Fin 2)] ⟨1, ![a]⟩ L 0xFF800000#32 hr hφ hmax)) hc) hb)))
          0x00000000#32 hr hφ hadd) hc) hb) (ix2 p q)
      = Ideal.div (Ideal.exp (L (ix2 p q) - max (Ideal.ofBits .f32 0xFF800000#32) ((Finset.univ : Finset (Fin b)).fold max (Ideal.ofBits .f32 0xFF800000#32) fun k => L (ix2 p k))))
          (∑ j : Fin b, Ideal.exp (L (ix2 p j) - max (Ideal.ofBits .f32 0xFF800000#32) ((Finset.univ : Finset (Fin b)).fold max (Ideal.ofBits .f32 0xFF800000#32) fun k => L (ix2 p k)))) := by
  generalize htop : broadcastTo ⟨2, ![a, b]⟩ (shapeCast ⟨2, ![a, 1]⟩ (maximumf (broadcast ⟨1, ![a]⟩ (Scalar.ofBits (F := Ideal) .f32 0xFF800000#32))
          (multiReduction .maximumf [(1 : Fin 2)] ⟨1, ![a]⟩ L 0xFF800000#32 hr hφ hmax)) hc) hb = top
  have htop' : ∀ j : Fin b, top (ix2 p j) = max (Ideal.ofBits .f32 0xFF800000#32) ((Finset.univ : Finset (Fin b)).fold max (Ideal.ofBits .f32 0xFF800000#32) fun k => L (ix2 p k)) := by
    intro j
    subst htop
    refine (Cert.Keepdims.broadcastTo_a1_ab_apply _ hb p j).trans ?_
    refine (Cert.Keepdims.shapeCast_a_a1_apply _ hc p 0).trans ?_
    refine congrArg₂ max rfl ?_
    exact Cert.BlockLayout.multiReduction_max_trailing2 L _ hr hφ hmax p
  have he : ∀ j : Fin b, exp (subf L top) (ix2 p j)
      = Ideal.exp (L (ix2 p j) - max (Ideal.ofBits .f32 0xFF800000#32) ((Finset.univ : Finset (Fin b)).fold max (Ideal.ofBits .f32 0xFF800000#32) fun k => L (ix2 p k))) := by
    intro j
    show Ideal.exp (L (ix2 p j) - top (ix2 p j)) = _
    rw [htop' j]
  refine congrArg₂ Ideal.div (he q) ?_
  refine (Cert.Keepdims.broadcastTo_a1_ab_apply _ hb p q).trans ?_
  refine (Cert.Keepdims.shapeCast_a_a1_apply _ hc p 0).trans ?_
  refine (Cert.BlockLayout.multiReduction_add_trailing2 _ _ hr hφ hadd p).trans ?_
  exact Finset.sum_congr rfl fun j _ => he j

end Cert.Lib.SoftmaxSteps

end
-- ==== Proof.AttnBlock.lean ====
/-
  The attention kernel's body at one entry, at the exact values.

  The body takes a block of 512 query rows qb [1, 512, 256] and the whole key and value matrices of the batch
  kb, vb [1, 2048, 256]. It forms the logits  ℓ (p, t) = (Σ_u qb (0, p, u) · kb (0, t, u)) · c  (rows against rows,
  c the word of 2⁻⁵), puts them through the row softmax (maximum from -inf joined with -inf, subtract, exp, row sum,
  divide), and multiplies the weights by the values:  out (0, p, j) = Σ_t w (p, t) · vb (0, t, j).
  When the three blocks are the rows of three arrays Q, K, V of one batch b (query row s for local row p), that is
  the attention output of the specification at (b, s, j).
-/
import proofs.«120962_j13855564496966_1_alg».proof.Proof.Gen.KernelIdeal.Skeleton
import proofs.«120962_j13855564496966_1_alg».proof.Proof.LibContractPlain
import proofs.«120962_j13855564496966_1_alg».proof.Proof.LibContractRows
import proofs.«120962_j13855564496966_1_alg».proof.Proof.LibSoftmaxSteps
import proofs.«120962_j13855564496966_1_alg».proof.Proof.Spec
import Idealize.ShloMosaic.Lib.ValueLayout

noncomputable section

namespace Cert.KernelIdeal.AttnBlock

open Idealize.ShloMosaic Idealize.ShloMosaic.ValueIdx Cert.KernelIdeal Cert.KernelIdeal.Gen Cert.AttnTanh

/-- The logit of local query row p against key row t. -/
def blkLogit (qb : Vec Ideal S1x512x256 .bf16) (kb : Vec Ideal S1x2048x256 .bf16) (p : Fin 512) (t : Fin 2048) : EReal :=
  (∑ u : Fin 256, qb (ix3 (0 : Fin 1) p u) * kb (ix3 (0 : Fin 1) t u)) * scaleWord

/-- The maximum the softmax subtracts on row p. -/
def blkTop (qb : Vec Ideal S1x512x256 .bf16) (kb : Vec Ideal S1x2048x256 .bf16) (p : Fin 512) : EReal :=
  max negInf ((Finset.univ : Finset (Fin 2048)).fold max negInf fun t => blkLogit qb kb p t)

/-- The softmax weight of key row t on row p. -/
def blkWeight (qb : Vec Ideal S1x512x256 .bf16) (kb : Vec Ideal S1x2048x256 .bf16) (p : Fin 512) (t : Fin 2048) : EReal :=
  Ideal.div (Ideal.exp (blkLogit qb kb p t - blkTop qb kb p))
    (∑ j : Fin 2048, Ideal.exp (blkLogit qb kb p j - blkTop qb kb p))

/-- The body's scaled logits, as the matrix [512, 2048] the body forms. -/
def logitsMat (qb : Vec Ideal S1x512x256 .bf16) (kb : Vec Ideal S1x2048x256 .bf16) : FVec Ideal S512x2048 .f32 :=
  mulf (matmul dot_S512x256_S2048x256_S512x2048_1_1_0_0_n_n none
      (shapeCast S512x256 qb shapeCasts_S1x512x256_S512x256 : FVec Ideal S512x256 .bf16)
      (shapeCast S2048x256 kb shapeCasts_S1x2048x256_S2048x256 : FVec Ideal S2048x256 .bf16)
      (constant (F := Ideal) S512x2048 .f32 0x00000000#32))
    (broadcast S512x2048 (Scalar.ofBits (F := Ideal) .f32 0x3D000000#32))

/-- The logits matrix at (p, t): row p of the queries against row t of the keys, scaled. -/
theorem logitsMat_apply (qb : Vec Ideal S1x512x256 .bf16) (kb : Vec Ideal S1x2048x256 .bf16) (p : Fin 512) (t : Fin 2048) :
    logitsMat qb kb (ix2 p t) = blkLogit qb kb p t := by
  show (matmul dot_S512x256_S2048x256_S512x2048_1_1_0_0_n_n none
      (shapeCast S512x256 qb shapeCasts_S1x512x256_S512x256 : FVec Ideal S512x256 .bf16)
      (shapeCast S2048x256 kb shapeCasts_S1x2048x256_S2048x256 : FVec Ideal S2048x256 .bf16)
      (constant (F := Ideal) S512x2048 .f32 0x00000000#32) (ix2 p t)) * scaleWord = _
  refine congrArg (· * scaleWord) ?_
  refine (Idealize.ShloMosaic.ContractRows.matmul_zero_apply (M := 512) (K := 256) (N := 2048) none _ _ p t).trans ?_
  refine Finset.sum_congr rfl fun u _ => ?_
  rw [shapeCast_1ab_ab_apply qb shapeCasts_S1x512x256_S512x256 p u,
    shapeCast_1ab_ab_apply kb shapeCasts_S1x2048x256_S2048x256 t u]

/-- The body's payload in terms of the logits matrix. -/
theorem pay1_eq (qb : Vec Ideal S1x512x256 .bf16) (kb vb : Vec Ideal S1x2048x256 .bf16) :
    k1_pay1 (F := Ideal) qb kb vb
      = shapeCast S1x512x256 (matmul dot_S512x2048_S2048x256_S512x256_1_0_0_1_n_n none
          (truncf .bf16
            (divf (exp (subf (logitsMat qb kb) (broadcastTo S512x2048 (shapeCast S512x1 (maximumf (broadcast S512 (Scalar.ofBits (F := Ideal) .f32 0xFF800000#32))
                (multiReduction .maximumf [1] S512 (logitsMat qb kb) 0xFF800000#32 reduces_S512x2048_S512 (.inl rfl) rfl)) shapeCasts_S512_S512x1) broadcasts_S512x1_S512x2048)))
              (broadcastTo S512x2048 (shapeCast S512x1 (multiReduction .add [1] S512
                (exp (subf (logitsMat qb kb) (broadcastTo S512x2048 (shapeCast S512x1 (maximumf (broadcast S512 (Scalar.ofBits (F := Ideal) .f32 0xFF800000#32))
                  (multiReduction .maximumf [1] S512 (logitsMat qb kb) 0xFF800000#32 reduces_S512x2048_S512 (.inl rfl) rfl)) shapeCasts_S512_S512x1) broadcasts_S512x1_S512x2048)))
                0x00000000#32 reduces_S512x2048_S512 (.inl rfl) rfl) shapeCasts_S512_S512x1) broadcasts_S512x1_S512x2048))
            bitsLt_bf16_f32 : FVec Ideal S512x2048 .bf16)
          (shapeCast S2048x256 vb shapeCasts_S1x2048x256_S2048x256 : FVec Ideal S2048x256 .bf16)
          (constant (F := Ideal) S512x256 .f32 0x00000000#32)) shapeCasts_S512x256_S1x512x256 := rfl

/-- The body's payload at (0, p, j): the softmax weights of row p against column j of the values. -/
theorem pay1_apply (qb : Vec Ideal S1x512x256 .bf16) (kb vb : Vec Ideal S1x2048x256 .bf16) (p : Fin 512) (j : Fin 256) :
    k1_pay1 (F := Ideal) qb kb vb (ix3 (0 : Fin 1) p j) = ∑ t : Fin 2048, blkWeight qb kb p t * vb (ix3 (0 : Fin 1) t j) := by
  rw [pay1_eq]
  refine (shapeCast_ab_1ab_apply _ shapeCasts_S512x256_S1x512x256 (0 : Fin 1) p j).trans ?_
  refine (Cert.Lib.ContractPlain.matmulZero_apply dot_S512x2048_S2048x256_S512x256_1_0_0_1_n_n rfl none _ _ p j).trans ?_
  refine Finset.sum_congr rfl fun t _ => ?_
  refine congrArg₂ (· * ·) ?_ (shapeCast_1ab_ab_apply vb shapeCasts_S1x2048x256_S2048x256 t j)
  refine (Cert.Lib.SoftmaxSteps.softmaxSteps_apply (a := 512) (b := 2048) (logitsMat qb kb) reduces_S512x2048_S512 shapeCasts_S512_S512x1
    broadcasts_S512x1_S512x2048 (.inl rfl) rfl rfl p t).trans ?_
  unfold blkWeight blkTop
  simp only [logitsMat_apply]

/-- When the blocks are rows of arrays Q, K, V of batch b (local query row p being row s), the payload at (0, p, j) is
    the specification's attention output at (b, s, j). -/
theorem pay1_eq_attnAt (Q K V : (⟨3, ![8, 2048, 256]⟩ : Shape).Idx → EReal)
    (qb : Vec Ideal S1x512x256 .bf16) (kb vb : Vec Ideal S1x2048x256 .bf16) (b : Fin 8) (s : Fin 2048) (p : Fin 512)
    (hq : ∀ u : Fin 256, qb (ix3 (0 : Fin 1) p u) = Q (ix3 b s u))
    (hk : ∀ (t : Fin 2048) (u : Fin 256), kb (ix3 (0 : Fin 1) t u) = K (ix3 b t u))
    (hv : ∀ (t : Fin 2048) (u : Fin 256), vb (ix3 (0 : Fin 1) t u) = V (ix3 b t u)) (j : Fin 256) :
    k1_pay1 (F := Ideal) qb kb vb (ix3 (0 : Fin 1) p j) = attnAt Q K V b s j := by
  rw [pay1_apply]
  unfold attnAt weight rowTop logit blkWeight blkTop blkLogit
  simp only [hq, hk, hv]

/-- The same at a block index y and an array index i: row (y 1) of the query block is row (i 0, i 1) of Q, the key and
    value blocks are batch (i 0) of K and V, and y and i name the same column. -/
theorem pay1_eq_attn (Q K V : (⟨3, ![8, 2048, 256]⟩ : Shape).Idx → EReal)
    (qb : Vec Ideal S1x512x256 .bf16) (kb vb : Vec Ideal S1x2048x256 .bf16)
    (y : S1x512x256.Idx) (i : (⟨3, ![8, 2048, 256]⟩ : Shape).Idx)
    (hq : ∀ u : Fin 256, qb (ix3 (0 : Fin 1) (y 1) u) = Q (ix3 (i 0) (i 1) u))
    (hk : ∀ (t : Fin 2048) (u : Fin 256), kb (ix3 (0 : Fin 1) t u) = K (ix3 (i 0) t u))
    (hv : ∀ (t : Fin 2048) (u : Fin 256), vb (ix3 (0 : Fin 1) t u) = V (ix3 (i 0) t u))
    (hj : (y 2).val = (i 2).val) :
    k1_pay1 (F := Ideal) qb kb vb y = attn Q K V i := by
  have hy : y = ix3 (0 : Fin 1) (y 1) (y 2) :=
    (eq_ix3 y).trans (congrArg (fun a : Fin 1 => ix3 a (y 1) (y 2)) (Subsingleton.elim _ _))
  have hcol : (y 2 : Fin 256) = (i 2 : Fin 256) := Fin.ext hj
  refine (congrArg (k1_pay1 (F := Ideal) qb kb vb) hy).trans ?_
  refine (pay1_eq_attnAt Q K V qb kb vb (i 0) (i 1) (y 1) hq hk hv (y 2)).trans ?_
  show attnAt Q K V (i 0) (i 1) (y 2) = attnAt Q K V (i 0) (i 1) (i 2)
  rw [hcol]

end Cert.KernelIdeal.AttnBlock

end
-- ==== Proof.AttnArray.lean ====
/-
  The attention kernel's output array after its grid has run, at the exact values.

  The grid has 8 × 4 points; point (b, r) reads rows [512 r, 512 r + 512) of batch b of the query array and the whole
  batch b of the key and value arrays, and writes rows [512 r, 512 r + 512) of batch b of the output. What it writes
  back is, entry by entry, the specification's attention output over the three arrays as the region finds them, and
  the blocks of the 32 points tile the output array.
-/
import proofs.«120962_j13855564496966_1_alg».proof.Proof.Gen.KernelIdeal.Frame
import proofs.«120962_j13855564496966_1_alg».proof.Proof.AttnBlock
import Idealize.ShloMosaic.Lib.Pipeline.Value

set_option maxRecDepth 16384

noncomputable section

namespace Cert.KernelIdeal.AttnArray

open Idealize.ShloMosaic Idealize.ShloMosaic.TcCoe Idealize.ShloMosaic.ValueIdx Idealize.SL.Sem
open Cert.KernelIdeal Cert.KernelIdeal.Gen Cert.AttnTanh
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl

/-- The index maps over the grid: the query block and the output block move along the batch and the row axis; the key
    and value blocks are the whole batch. -/
theorem idx_maps : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- What point t writes back is its block of the attention output over the three arrays the region finds. -/
theorem flushed3 (c : Dev nD) (t : Fin cfg1.N) :
    (dat1 V c).flushed 3 t
      = ((cfg1.win 3).blk t).view.read (Elt Ideal) (attn (V c main_v0_0) (V c main_v0_1) (V c main_v0_2)) := by
  show (cfg1.win 3).cut (grid1.coords t) ((dat1 V c).after 3 t) = _
  rw [after1_3]
  unfold out1_3
  rw [View.canon_unit_zero zeros3]
  simp only [View.ld_unit_zero (S := S1x512x256) zeros3, View.ld_unit_zero (S := S1x2048x256) zeros3]
  obtain ⟨q0, q1, q2, k0, k1, k2, v0, v1, v2, o0, o1, o2⟩ := idx_maps t
  funext y
  have hy : (y 0).val < 1 := (y 0).isLt
  refine AttnBlock.pay1_eq_attn (V c main_v0_0) (V c main_v0_1) (V c main_v0_2) (iblk1 V c 0 t) (iblk1 V c 1 t) (iblk1 V c 2 t) y
    (((cfg1.win 3).blk t).view.emb y) (fun u => ?_) (fun r u => ?_) (fun r u => ?_) ?_
  · show V c main_v0_0 (((cfg1.win 0).blk t).view.emb (ix3 (0 : Fin 1) (y 1) u)) = V c main_v0_0 _
    refine congrArg (V c main_v0_0) (funext fun a => Fin.ext ?_)
    match a with
    | ⟨0, _⟩ =>
      show win1_0.index t (0 : Fin 3) * 1 + 1 * 0 = win1_3.index t (0 : Fin 3) * 1 + 1 * (y 0).val
      omega
    | ⟨1, _⟩ =>
      show win1_0.index t (1 : Fin 3) * 512 + 1 * (y 1).val = win1_3.index t (1 : Fin 3) * 512 + 1 * (y 1).val
      omega
    | ⟨2, _⟩ =>
      show win1_0.index t (2 : Fin 3) * 256 + 1 * u.val = u.val
      omega
  · show V c main_v0_1 (((cfg1.win 1).blk t).view.emb (ix3 (0 : Fin 1) r u)) = V c main_v0_1 _
    refine congrArg (V c main_v0_1) (funext fun a => Fin.ext ?_)
    match a with
    | ⟨0, _⟩ =>
      show win1_1.index t (0 : Fin 3) * 1 + 1 * 0 = win1_3.index t (0 : Fin 3) * 1 + 1 * (y 0).val
      omega
    | ⟨1, _⟩ =>
      show win1_1.index t (1 : Fin 3) * 2048 + 1 * r.val = r.val
      omega
    | ⟨2, _⟩ =>
      show win1_1.index t (2 : Fin 3) * 256 + 1 * u.val = u.val
      omega
  · show V c main_v0_2 (((cfg1.win 2).blk t).view.emb (ix3 (0 : Fin 1) r u)) = V c main_v0_2 _
    refine congrArg (V c main_v0_2) (funext fun a => Fin.ext ?_)
    match a with
    | ⟨0, _⟩ =>
      show win1_2.index t (0 : Fin 3) * 1 + 1 * 0 = win1_3.index t (0 : Fin 3) * 1 + 1 * (y 0).val
      omega
    | ⟨1, _⟩ =>
      show win1_2.index t (1 : Fin 3) * 2048 + 1 * r.val = r.val
      omega
    | ⟨2, _⟩ =>
      show win1_2.index t (2 : Fin 3) * 256 + 1 * u.val = u.val
      omega
  · show (y 2).val = win1_3.index t (2 : Fin 3) * 256 + 1 * (y 2).val
    omega

/-- An index of the output array is in point t's block iff each coordinate is in the block's range on its axis. -/
theorem mem_blk3 (t : Fin cfg1.N) (i : S8x2048x256.Idx) :
    i ∈ ((cfg1.win 3).blk t).view.set ↔ ∀ a : Fin 3, win1_3.index t a * S1x512x256.size a ≤ (i a).val
      ∧ (i a).val < win1_3.index t a * S1x512x256.size a + S1x512x256.size a := by
  show i ∈ ((View.whole main_v1).slice (win1_3.rect t)).set ↔ _
  rw [View.set_slice_whole, Rect.mem_set_unit]
  exact Iff.rfl

/-- Every index of the output array is in the block of the point (batch, row / 512). -/
theorem cover3 (i : S8x2048x256.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 256 := (i 2).isLt
  have hN : grid1.N = 32 := N_1
  refine ⟨⟨(i 0).val * 4 + (i 1).val / 512, by show _ < grid1.N; omega⟩, flush1_3 _, ?_⟩
  rw [mem_blk3]
  obtain ⟨-, -, -, -, -, -, -, -, -, o0, o1, o2⟩ := idx_maps ⟨(i 0).val * 4 + (i 1).val / 512, by show _ < grid1.N; omega⟩
  intro a
  match a with
  | ⟨0, _⟩ =>
    show win1_3.index _ (0 : Fin 3) * 1 ≤ (i 0).val ∧ (i 0).val < win1_3.index _ (0 : Fin 3) * 1 + 1
    rw [o0]; show ((i 0).val * 4 + (i 1).val / 512) / 4 * 1 ≤ (i 0).val ∧ (i 0).val < ((i 0).val * 4 + (i 1).val / 512) / 4 * 1 + 1
    omega
  | ⟨1, _⟩ =>
    show win1_3.index _ (1 : Fin 3) * 512 ≤ (i 1).val ∧ (i 1).val < win1_3.index _ (1 : Fin 3) * 512 + 512
    rw [o1]; show ((i 0).val * 4 + (i 1).val / 512) % 4 * 512 ≤ (i 1).val ∧ (i 1).val < ((i 0).val * 4 + (i 1).val / 512) % 4 * 512 + 512
    omega
  | ⟨2, _⟩ =>
    show win1_3.index _ (2 : Fin 3) * 256 ≤ (i 2).val ∧ (i 2).val < win1_3.index _ (2 : Fin 3) * 256 + 256
    rw [o2]; omega

/-- The output array after the grid: the attention output over the three arrays the region finds. -/
theorem final3 (c : Dev nD) :
    (dat1 V c).arrAt 3 cfg1.N = attn (V c main_v0_0) (V c main_v0_1) (V c main_v0_2) :=
  (dat1 V c).arrAt_eq_of_cover 3 _ (fun t _ => flushed3 V c t) (cover3)

end Cert.KernelIdeal.AttnArray

end
-- ==== Proof.KernelRun.lean ====
/-
  The idealized kernel's run with its result array named.

  The program is two grids one after the other. The first leaves the three projections of x in three arrays; the
  second reads those arrays as it finds them and leaves the attention output over them. So the result array ends at
  the specification's result of the four argument arrays, which end unchanged.
-/
import proofs.«120962_j13855564496966_1_alg».proof.Proof.Gen.KernelIdeal.Frame
import proofs.«120962_j13855564496966_1_alg».proof.Proof.ProjArray
import proofs.«120962_j13855564496966_1_alg».proof.Proof.AttnArray

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.AttnTanh

local notation "𝕄" => MT nD τ sig Unit (Elt Ideal) ℕ (UR sig nD τ) ℕ

variable (m : (ℓ : Loc nD τ sig) → Buf (Elt Ideal) ℓ) (ρ : Dev nD → PrngReg)

/-- After the first grid the query array holds the projection of x by the first weight matrix. -/
theorem queries (c : Dev nD) :
    V1 m ρ c main_v0_0 = proj (m ((c : Thread nD τ).loc main_arg0)) (m ((c : Thread nD τ).loc main_arg1)) :=
  (W1_arr m ρ c 4).trans (ProjArray.final4 (V0 m ρ) c)

/-- After the first grid the key array holds the projection of x by the second weight matrix. -/
theorem keys (c : Dev nD) :
    V1 m ρ c main_v0_1 = proj (m ((c : Thread nD τ).loc main_arg0)) (m ((c : Thread nD τ).loc main_arg2)) :=
  (W1_arr m ρ c 5).trans (ProjArray.final5 (V0 m ρ) c)

/-- After the first grid the value array holds the projection of x by the third weight matrix. -/
theorem values (c : Dev nD) :
    V1 m ρ c main_v0_2 = proj (m ((c : Thread nD τ).loc main_arg0)) (m ((c : Thread nD τ).loc main_arg3)) :=
  (W1_arr m ρ c 6).trans (ProjArray.final6 (V0 m ρ) c)

/-- After the second grid the result array holds the attention output over the three projections. -/
theorem result_array (c : Dev nD) :
    W2 m ρ c (Proc.devRef .tc main_v1)
      = result (m ((c : Thread nD τ).loc main_arg0)) (m ((c : Thread nD τ).loc main_arg1))
          (m ((c : Thread nD τ).loc main_arg2)) (m ((c : Thread nD τ).loc main_arg3)) := by
  refine (W2_arr m ρ c 3).trans ((AttnArray.final3 (V1 m ρ) c).trans ?_)
  rw [queries m ρ c, keys m ρ c, values m ρ c]
  rfl

-- the launch theorem's implicit arguments are found by unifying its conclusion with this one, which takes unfolding
-- plain definitions in a metavariable's type
set_option backward.isDefEq.respectTransparency.types false in
/-- From any memory with zero counters every weakly fair execution of the program terminates without a fault; the
    result array ends at the specification's result of the argument arrays, and those end as launched. -/
theorem run : θ_run defs (onTc (τ := τ) (main (F := Ideal))) ⟨m, fun _ => 0, ρ⟩ (fun r => ∀ c : Dev nD,
      r.2.mem ((c.tc : Thread nD τ).loc main_v1)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_array m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.RunValue

end
-- ==== Proof.LibHostMaxTrailing.lean ====
/-
  The host's maximum over the trailing axis of a rank-3 array, read at an entry, at the exact values.

  A `stablehlo.reduce` with a `maximum` body over axis 2 of an array [a, b, c] gives, at `(p, q)`, the fold of `max`
  from the initial value's element over `k` of the source at `(p, q, k)`: `max` is commutative and associative, so the
  order in which the host combines the elements does not matter. (A row maximum as `jnp.max(x, axis=-1)` or the one
  inside `jax.nn.softmax` lowers to this.) The same for a rank-2 array [a, b] at `p`.
-/
import Idealize.ShloMosaic.PureOps.Reduce
import Idealize.ShloMosaic.PureOps.Ideal.Laws
import Idealize.ShloMosaic.Lib.ValueIdx

noncomputable section

namespace Cert.Lib.HostMaxTrailing

open Idealize.ShloMosaic Idealize.ShloMosaic.ValueIdx

/-- Reducing [a, b, c] over its trailing axis: the result index `(p, q)` with `k` put back on that axis is `(p, q, k)`. -/
theorem lift3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- The host's maximum of [a, b, c] over its trailing axis, at `(p, q)`: the fold of `max` from the initial value over
    the entries `(p, q, ·)`. -/
theorem hostMax_trailing3 {φ : FTy} {a b c : ℕ} {u : Shape} (y : FVec Ideal ⟨3, ![a, b, c]⟩ φ) (init : u.Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (q : Fin b) :
    Host.reduce FloatOps.maximumf y init h' hu (ix2 p q)
      = (Finset.univ : Finset (Fin c)).fold max (init (Shape.Idx.first hu)) (fun k => y (ix3 p q k)) := by
  refine (Host.reduce_eq_fold_single FloatOps.maximumf y init h' h hu (ix2 p q)).trans ?_
  exact congrArg (Finset.fold max _ · Finset.univ) (funext fun k => congrArg y (lift3 h p q k))

/-- Reducing [a, b] over its trailing axis: the result index `p` with `k` put back is `(p, k)`. -/
theorem lift2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- The host's maximum of [a, b] over its trailing axis, at `p`: the fold of `max` from the initial value over row `p`. -/
theorem hostMax_trailing2 {φ : FTy} {a b : ℕ} {u : Shape} (y : FVec Ideal ⟨2, ![a, b]⟩ φ) (init : u.Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce FloatOps.maximumf y init h' hu (ix1 p)
      = (Finset.univ : Finset (Fin b)).fold max (init (Shape.Idx.first hu)) (fun k => y (ix2 p k)) := by
  refine (Host.reduce_eq_fold_single FloatOps.maximumf y init h' h hu (ix1 p)).trans ?_
  exact congrArg (Finset.fold max _ · Finset.univ) (funext fun k => congrArg y (lift2 h p k))

end Cert.Lib.HostMaxTrailing

end
-- ==== Proof.RefValue.lean ====
/-
  The idealized reference, stage by stage, is the specification.

  Each of its 28 host operations is read at an index: the three projections are tanh of a contraction of x with a
  weight matrix; the scale is 1 / sqrt 1024, which is the word of 2⁻⁵; the logits are the batched contraction of the
  queries with the keys over the feature axis, times the scale; the row maximum is the fold of max from -inf joined
  with -inf; the exponentials, their row sum (from the zero word, which adds nothing) and the quotient give the
  weights; and the result is the batched contraction of the weights with the values over the key axis.
-/
import proofs.«120962_j13855564496966_1_alg».proof.Proof.Gen.ReferenceIdeal.Read
import proofs.«120962_j13855564496966_1_alg».proof.Proof.LibHostMaxTrailing
import proofs.«120962_j13855564496966_1_alg».proof.Proof.Spec
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.AttnTanh

variable (x0 : (⟨S8x2048x1024, .f32⟩ : BufTy).Contents (Elt Ideal)) (x1 x2 x3 : (⟨S1024x256, .f32⟩ : BufTy).Contents (Elt Ideal))

/-- The first projection stage is the specification's projection of x by the first weight matrix. -/
theorem queries_eq : val_main_v1 (F := Ideal) x0 x1 = proj x0 x1 := by
  funext i
  rw [val_main_v1_apply, val_main_v0_apply]
  show Ideal.tanh (∑ k : Fin 1024, x0 (lidx_main_v0 i k) * x1 (ridx_main_v0 i k)) = projAt x0 x1 (i 0) (i 1) (i 2)
  unfold projAt
  refine congrArg Ideal.tanh (Finset.sum_congr rfl fun k _ => ?_)
  have el : lidx_main_v0 i k = ix3 (i 0) (i 1) k :=
    funext fun a => Fin.ext (by match a with | ⟨0, _⟩ => rfl | ⟨1, _⟩ => rfl | ⟨2, _⟩ => rfl)
  have er : ridx_main_v0 i k = ix2 k (i 2) :=
    funext fun a => Fin.ext (by match a with | ⟨0, _⟩ => rfl | ⟨1, _⟩ => rfl)
  rw [el, er]
  rfl

/-- The second projection stage, by the second weight matrix. -/
theorem keys_eq : val_main_v3 (F := Ideal) x0 x2 = proj x0 x2 := by
  funext i
  rw [val_main_v3_apply, val_main_v2_apply]
  show Ideal.tanh (∑ k : Fin 1024, x0 (lidx_main_v2 i k) * x2 (ridx_main_v2 i k)) = projAt x0 x2 (i 0) (i 1) (i 2)
  unfold projAt
  refine congrArg Ideal.tanh (Finset.sum_congr rfl fun k _ => ?_)
  have el : lidx_main_v2 i k = ix3 (i 0) (i 1) k :=
    funext fun a => Fin.ext (by match a with | ⟨0, _⟩ => rfl | ⟨1, _⟩ => rfl | ⟨2, _⟩ => rfl)
  have er : ridx_main_v2 i k = ix2 k (i 2) :=
    funext fun a => Fin.ext (by match a with | ⟨0, _⟩ => rfl | ⟨1, _⟩ => rfl)
  rw [el, er]
  rfl

/-- The third projection stage, by the third weight matrix. -/
theorem values_eq : val_main_v5 (F := Ideal) x0 x3 = proj x0 x3 := by
  funext i
  rw [val_main_v5_apply, val_main_v4_apply]
  show Ideal.tanh (∑ k : Fin 1024, x0 (lidx_main_v4 i k) * x3 (ridx_main_v4 i k)) = projAt x0 x3 (i 0) (i 1) (i 2)
  unfold projAt
  refine congrArg Ideal.tanh (Finset.sum_congr rfl fun k _ => ?_)
  have el : lidx_main_v4 i k = ix3 (i 0) (i 1) k :=
    funext fun a => Fin.ext (by match a with | ⟨0, _⟩ => rfl | ⟨1, _⟩ => rfl | ⟨2, _⟩ => rfl)
  have er : ridx_main_v4 i k = ix2 k (i 2) :=
    funext fun a => Fin.ext (by match a with | ⟨0, _⟩ => rfl | ⟨1, _⟩ => rfl)
  rw [el, er]
  rfl

/-- The broadcast scale 1 / sqrt 1024 is, at every index, the word of 2⁻⁵. -/
theorem scale_at (i : S8x2048x2048.Idx) : val_main_v9 (F := Ideal) i = scaleWord := by
  rw [val_main_v9_apply, val_main_v7_apply, val_main_cst_0_apply, val_main_v6_apply, val_main_cst_apply]
  exact scale_eq

/-- The scaled logits at (b, s, t). -/
theorem logits_at (b : Fin 8) (s t : Fin 2048) :
    val_main_v10 (F := Ideal) x0 x1 x2 (ix3 b s t) = logit (proj x0 x1) (proj x0 x2) b s t := by
  rw [val_main_v10_apply, val_main_v8_apply, scale_at, queries_eq, keys_eq]
  show (∑ k : Fin 256, proj x0 x1 (lidx_main_v8 (ix3 b s t) k) * proj x0 x2 (ridx_main_v8 (ix3 b s t) k)) * scaleWord = _
  unfold logit
  refine congrArg (· * scaleWord) (Finset.sum_congr rfl fun k _ => ?_)
  have el : lidx_main_v8 (ix3 b s t) k = ix3 b s k :=
    funext fun a => Fin.ext (by match a with | ⟨0, _⟩ => rfl | ⟨1, _⟩ => rfl | ⟨2, _⟩ => rfl)
  have er : ridx_main_v8 (ix3 b s t) k = ix3 b t k :=
    funext fun a => Fin.ext (by match a with | ⟨0, _⟩ => rfl | ⟨1, _⟩ => rfl | ⟨2, _⟩ => rfl)
  rw [el, er]

/-- The row maximum joined with -inf at (b, s). -/
theorem rowTop_at (b : Fin 8) (s : Fin 2048) :
    val_main_v13 (F := Ideal) x0 x1 x2 (ix2 b s) = rowTop (proj x0 x1) (proj x0 x2) b s := by
  rw [val_main_v13_apply, val_main_v12_apply, val_main_cst_2_apply]
  show max negInf (val_main_v11 (F := Ideal) x0 x1 x2 (ix2 b s)) = _
  unfold rowTop val_main_v11
  refine congrArg (max negInf) ?_
  refine (Cert.Lib.HostMaxTrailing.hostMax_trailing3 (val_main_v10 (F := Ideal) x0 x1 x2) (val_main_cst_1 (F := Ideal))
    reducesTo_S8x2048x2048_S8x2048_d2 (by decide) h_S_ b s).trans ?_
  rw [val_main_cst_1_apply]
  exact congrArg (Finset.fold max negInf · Finset.univ) (funext fun k => logits_at x0 x1 x2 b s k)

/-- The exponential of the shifted logit at (b, s, t). -/
theorem exps_at (b : Fin 8) (s t : Fin 2048) :
    val_main_v17 (F := Ideal) x0 x1 x2 (ix3 b s t)
      = Ideal.exp (logit (proj x0 x1) (proj x0 x2) b s t - rowTop (proj x0 x1) (proj x0 x2) b s) := by
  rw [val_main_v17_apply, val_main_v16_apply, val_main_v15_apply, val_main_v14_apply]
  have ei : idx_main_v14 (idx_main_v15 (ix3 b s t)) = ix2 b s :=
    funext fun a => Fin.ext (by match a with | ⟨0, _⟩ => rfl | ⟨1, _⟩ => rfl)
  rw [ei, rowTop_at, logits_at]
  rfl

/-- The row sum of the exponentials at (b, s): the zero word adds nothing. -/
theorem rowSum_at (b : Fin 8) (s : Fin 2048) :
    val_main_v18 (F := Ideal) x0 x1 x2 (ix2 b s)
      = ∑ j : Fin 2048, Ideal.exp (logit (proj x0 x1) (proj x0 x2) b s j - rowTop (proj x0 x1) (proj x0 x2) b s) := by
  rw [val_main_v18_apply, val_main_cst_3_apply]
  show Ideal.ofBits .f32 0x00000000#32 + _ = _
  rw [Ideal.ofBits_zero_f32, zero_add]
  refine Finset.sum_congr rfl fun k _ => ?_
  have ei : idx_main_v18 (ix2 b s) k = ix3 b s k :=
    funext fun a => Fin.ext (by match a with | ⟨0, _⟩ => rfl | ⟨1, _⟩ => rfl | ⟨2, _⟩ => rfl)
  rw [ei, exps_at]

/-- The softmax weight at (b, s, t). -/
theorem weights_at (b : Fin 8) (s t : Fin 2048) :
    val_main_v21 (F := Ideal) x0 x1 x2 (ix3 b s t) = weight (proj x0 x1) (proj x0 x2) b s t := by
  rw [val_main_v21_apply, val_main_v20_apply, val_main_v19_apply]
  have ei : idx_main_v19 (idx_main_v20 (ix3 b s t)) = ix2 b s :=
    funext fun a => Fin.ext (by match a with | ⟨0, _⟩ => rfl | ⟨1, _⟩ => rfl)
  rw [ei, rowSum_at, exps_at]
  rfl

/-- The reference's last stage is the specification's result of the four arguments. -/
theorem result_eq : val_main_v22 (F := Ideal) x0 x1 x2 x3 = result x0 x1 x2 x3 := by
  funext i
  obtain ⟨b, s, u, rfl⟩ : ∃ (b : Fin 8) (s : Fin 2048) (u : Fin 256), i = ix3 b s u := ⟨i 0, i 1, i 2, eq_ix3 i⟩
  rw [val_main_v22_apply, values_eq]
  show _ = attnAt (proj x0 x1) (proj x0 x2) (proj x0 x3) b s u
  unfold attnAt
  refine Finset.sum_congr rfl fun k _ => ?_
  have el : lidx_main_v22 (ix3 b s u) k = ix3 b s k :=
    funext fun a => Fin.ext (by match a with | ⟨0, _⟩ => rfl | ⟨1, _⟩ => rfl | ⟨2, _⟩ => rfl)
  have er : ridx_main_v22 (ix3 b s u) k = ix3 b k u :=
    funext fun a => Fin.ext (by match a with | ⟨0, _⟩ => rfl | ⟨1, _⟩ => rfl | ⟨2, _⟩ => rfl)
  rw [el, er, weights_at]

end Cert.ReferenceIdeal.RefValue

end
-- ==== Proof.lean ====
/-
  Tanh-activated query, key and value projections followed by full softmax attention, computed by two grids of a
  kernel (the projections block by block, then the attention block of 512 query rows against all keys and values of
  the batch) and by a plain array program: on the extended reals the two give the same array.

  Both compute, index by index, the same expression of the four arguments (Proof/Spec.lean): the projections are
  tanh of the same finite sums, the logits the same finite sums times the scale, the softmax is spelt the same way on
  both sides, and the result is the same finite sum of weights times values. No law beyond the equality of the two
  spellings of the scale (1 / sqrt 1024 = 2⁻⁵) is used, and no finiteness of the inputs.

  The kernel's side is Proof/KernelRun.lean (its run, over Proof/ProjArray.lean and Proof/AttnArray.lean: what each
  grid leaves in its output arrays, from what one grid point writes back, Proof/ProjBlock.lean and
  Proof/AttnBlock.lean); the reference's side is Proof/RefValue.lean over its generated run.
-/
import proofs.«120962_j13855564496966_1_alg».proof.Defs
import proofs.«120962_j13855564496966_1_alg».proof.Proof.Gen.Kernel
import proofs.«120962_j13855564496966_1_alg».proof.Proof.Gen.Kernel.Skeleton
import proofs.«120962_j13855564496966_1_alg».proof.Proof.Gen.Kernel.Launch
import proofs.«120962_j13855564496966_1_alg».proof.Proof.Gen.Kernel.Points
import proofs.«120962_j13855564496966_1_alg».proof.Proof.Gen.Kernel.Frame
import proofs.«120962_j13855564496966_1_alg».proof.Proof.Gen.KernelIdeal
import proofs.«120962_j13855564496966_1_alg».proof.Proof.Gen.KernelIdeal.Skeleton
import proofs.«120962_j13855564496966_1_alg».proof.Proof.Gen.KernelIdeal.Launch
import proofs.«120962_j13855564496966_1_alg».proof.Proof.Gen.KernelIdeal.Points
import proofs.«120962_j13855564496966_1_alg».proof.Proof.Gen.KernelIdeal.Frame
import proofs.«120962_j13855564496966_1_alg».proof.Proof.Gen.ReferenceIdeal
import proofs.«120962_j13855564496966_1_alg».proof.Proof.Gen.ReferenceIdeal.Run
import proofs.«120962_j13855564496966_1_alg».proof.Proof.Gen.ReferenceIdeal.Read
import proofs.«120962_j13855564496966_1_alg».proof.Proof.Gen.Pre_finite_inputs
import proofs.«120962_j13855564496966_1_alg».proof.Proof.KernelRun
import proofs.«120962_j13855564496966_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as launched. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the four arguments both programs end with the result array at the specification's result
    of those arguments. -/
theorem algebraic : Cert.algebraic_KernelIdeal_ReferenceIdeal := by
  intro m ρ m' ρ' _ hagree
  refine ⟨fun c => Cert.AttnTanh.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _).trans ?_
  rw [Cert.ReferenceIdeal.RefValue.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
